-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S4x2048x3 : Shape := ⟨3, ![4, 2048, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4x2048x3 : S_.BroadcastsInDim S4x2048x3 (![] : Fin 0 → Fin S4x2048x3.rank)
  reducesTo_S4x2048x3_S_d0_1_2 : S4x2048x3.ReducesTo [0, 1, 2] S_

variable [Facts]

def fn {F : FTy → Type} [FloatOps F] (main_arg0 : FVec F S4x8192x3 .f32) (main_arg1 : FVec F S4x2048x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x2048x3 .f32 := Host.absf main_arg1
  let main_cst_0 : FVec F S_ .f32 := constant S_ .f32 0x7F800000#32
  let main_v5 : FVec F S4x2048x3 .f32 := broadcastInDim S4x2048x3 ![] bcast_S_S4x2048x3 main_cst_0
  let main_v6 : IVec S4x2048x3 1 := cmpf .olt main_v4 main_v5
  let main_c_1 : IVec S_ 1 := constantI S_ 1 1#1
  let main_v7 : IVec S_ 1 := (fun x v => Host.reduce IntOp.andi x v reducesTo_S4x2048x3_S_d0_1_2 h_S_) main_v6 main_c_1
  let main_v8 : IVec S_ 1 := andi main_v3 main_v7
  main_v8
-- ==== Kernel.lean ====
abbrev S4x8192x3 : Shape := ⟨3, ![4, 8192, 3]⟩
abbrev S4x2048x3 : Shape := ⟨3, ![4, 2048, 3]⟩
abbrev S4x3x8192 : Shape := ⟨3, ![4, 3, 8192]⟩
abbrev S4x3x2048 : Shape := ⟨3, ![4, 3, 2048]⟩
abbrev S4x1x1 : Shape := ⟨3, ![4, 1, 1]⟩
abbrev S1x3x512 : Shape := ⟨3, ![1, 3, 512]⟩
abbrev S1x3x2048 : Shape := ⟨3, ![1, 3, 2048]⟩
abbrev S1x1x1 : Shape := ⟨3, ![1, 1, 1]⟩
abbrev S1x2048 : Shape := ⟨2, ![1, 2048]⟩
abbrev S1x1 : Shape := ⟨2, ![1, 1]⟩
abbrev S1x1x512 : Shape := ⟨3, ![1, 1, 512]⟩
abbrev S1x512 : Shape := ⟨2, ![1, 512]⟩
abbrev S1x1x2048 : Shape := ⟨3, ![1, 1, 2048]⟩
abbrev S1x512x1 : Shape := ⟨3, ![1, 512, 1]⟩
abbrev S1x512x2048 : Shape := ⟨3, ![1, 512, 2048]⟩
abbrev S1 : Shape := ⟨1, ![1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S4x8192x3, .f32⟩
  | .hbm, ⟨1, _⟩ => ⟨S4x2048x3, .f32⟩
  | .hbm, ⟨2, _⟩ => ⟨S4x3x8192, .f32⟩
  | .hbm, ⟨3, _⟩ => ⟨S4x3x2048, .f32⟩
  | .hbm, ⟨4, _⟩ => ⟨S4x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x3x512, .f32⟩
  | .local _ .vmem, ⟨1, _⟩ => ⟨S1x3x512, .f32⟩
  | .local _ .vmem, ⟨2, _⟩ => ⟨S1x3x2048, .f32⟩
  | .local _ .vmem, ⟨3, _⟩ => ⟨S1x1x1, .f32⟩
  | .local _ .vmem, ⟨4, _⟩ => ⟨S1x1x1, .f32⟩
  | .local _ .vmem, ⟨5, _⟩ => ⟨S1x2048, .f32⟩
  | .local _ .vmem, ⟨6, _⟩ => ⟨S1x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v53 : BitVec 1 := Scalar.cmpi .eq arg1 c15_i32
  let v54 : BitVec 32 := Scalar.extui v53
  let c0_i32_16 : BitVec 32 := 0#32
  let v55 : BitVec 1 := Scalar.cmpi .ne v54 c0_i32_16
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S4x8192x3_S4x3x8192_0_2_1 : S4x8192x3.Transposes [0, 2, 1] S4x3x8192
  transposes_S4x2048x3_S4x3x2048_0_2_1 : S4x2048x3.Transposes [0, 2, 1] S4x3x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x3x512_S1x3x512_0_0_0 : ∀ a, (![0, 0, 0] : Fin 3 → Nat) a + S1x3x512.size a ≤ S1x3x512.size a
  h_S1x3x512 : 0 < S1x3x512.numel
  shapeCasts_S1x3x512_S1x3x512 : S1x3x512.ShapeCasts S1x3x512
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S1x3x2048 : S1x3x2048.ShapeCasts S1x3x2048
  slices_S1x3x512_o0_0_0_S1x1x512 : S1x3x512.Slices ![0, 0, 0] S1x1x512
  shapeCasts_S1x1x512_S1x512 : S1x1x512.ShapeCasts S1x512
  slices_S1x3x512_o0_1_0_S1x1x512 : S1x3x512.Slices ![0, 1, 0] S1x1x512
  slices_S1x3x512_o0_2_0_S1x1x512 : S1x3x512.Slices ![0, 2, 0] S1x1x512
  slices_S1x3x2048_o0_0_0_S1x1x2048 : S1x3x2048.Slices ![0, 0, 0] S1x1x2048
  shapeCasts_S1x1x2048_S1x2048 : S1x1x2048.ShapeCasts S1x2048
  slices_S1x3x2048_o0_1_0_S1x1x2048 : S1x3x2048.Slices ![0, 1, 0] S1x1x2048
  slices_S1x3x2048_o0_2_0_S1x1x2048 : S1x3x2048.Slices ![0, 2, 0] S1x1x2048
  shapeCasts_S1x512_S1x512x1 : S1x512.ShapeCasts S1x512x1
  shapeCasts_S1x2048_S1x1x2048 : S1x2048.ShapeCasts S1x1x2048
  broadcasts_S1x512x1_S1x512x2048 : S1x512x1.Broadcasts S1x512x2048
  broadcasts_S1x1x2048_S1x512x2048 : S1x1x2048.Broadcasts S1x512x2048
  reduces_S1x512x2048_S1x512 : S1x512x2048.Reduces [2] S1x512
  reduces_S1x512_S1 : S1x512.Reduces [1] S1
  shapeCasts_S1_S1x1 : S1.ShapeCasts S1x1
  reduces_S1x512x2048_S1x2048 : S1x512x2048.Reduces [1] S1x2048
  reduces_S1x2048_S1 : S1x2048.Reduces [1] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S4x1x1_S_d0_1_2 : S4x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512.size a ≤ S4x3x8192.size a
  hwx0_0 : ∀ i : grid0.Coords, EltTy.bits .f32 = 32 ∨ (Rect.block (s := S4x3x8192) S1x3x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S4x3x2048.size a
  hwx0_1 : ∀ i : grid0.Coords, EltTy.bits .f32 = 32 ∨ (Rect.block (s := S4x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)

variable [Facts₀]

abbrev win0_0 : Pipeline.Window sig grid0 :=
  Pipeline.Window.ofSpec (Memref.whole main_v0) S1x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S4x2048x3 : Shape := ⟨3, ![4, 2048, 3]⟩
abbrev S_ : Shape := ⟨0, ![]⟩
abbrev S4x8192 : Shape := ⟨2, ![4, 8192]⟩
abbrev S4x2048 : Shape := ⟨2, ![4, 2048]⟩
abbrev S4x8192x2048 : Shape := ⟨3, ![4, 8192, 2048]⟩
abbrev S4x8192x1 : Shape := ⟨3, ![4, 8192, 1]⟩
abbrev S4x1x2048 : Shape := ⟨3, ![4, 1, 2048]⟩
abbrev S4x2048x8192 : Shape := ⟨3, ![4, 2048, 8192]⟩
abbrev S4x2048x1 : Shape := ⟨3, ![4, 2048, 1]⟩
abbrev S4x1x8192 : Shape := ⟨3, ![4, 1, 8192]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x2048x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x2048x3, .f32⟩
  | .hbm, ⟨6, _⟩ => ⟨S_, .f32⟩
  | .hbm, ⟨7, _⟩ => ⟨S4x2048, .f32⟩
  | .hbm, ⟨8, _⟩ => ⟨S4x8192x2048, .f32⟩
  | .hbm, ⟨9, _⟩ => ⟨S4x8192x1, .f32⟩
  | .hbm, ⟨10, _⟩ => ⟨S4x1x2048, .f32⟩
  | .hbm, ⟨11, _⟩ => ⟨S4x8192x2048, .f32⟩
  | .hbm, ⟨12, _⟩ => ⟨S4x8192x2048, .f32⟩
  | .hbm, ⟨13, _⟩ => ⟨S4x8192x2048, .f32⟩
  | .hbm, ⟨14, _⟩ => ⟨S_, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S_, .f32⟩
  | .hbm, ⟨19, _⟩ => ⟨S4x8192x2048, .f32⟩
  | .hbm, ⟨20, _⟩ => ⟨S4x8192x2048, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S_, .f32⟩
  | .hbm, ⟨25, _⟩ => ⟨S4x2048x3, .f32⟩
  | .hbm, ⟨26, _⟩ => ⟨S_, .f32⟩
  | .hbm, ⟨27, _⟩ => ⟨S4x2048, .f32⟩
  | .hbm, ⟨28, _⟩ => ⟨S4x8192x3, .f32⟩
  | .hbm, ⟨29, _⟩ => ⟨S_, .f32⟩
  | .hbm, ⟨30, _⟩ => ⟨S4x8192, .f32⟩
  | .hbm, ⟨31, _⟩ => ⟨S4x2048x8192, .f32⟩
  | .hbm, ⟨32, _⟩ => ⟨S4x2048x1, .f32⟩
  | .hbm, ⟨33, _⟩ => ⟨S4x1x8192, .f32⟩
  | .hbm, ⟨34, _⟩ => ⟨S4x2048x8192, .f32⟩
  | .hbm, ⟨35, _⟩ => ⟨S4x2048x8192, .f32⟩
  | .hbm, ⟨36, _⟩ => ⟨S4x2048x8192, .f32⟩
  | .hbm, ⟨37, _⟩ => ⟨S_, .f32⟩
  | .hbm, ⟨38, _⟩ => ⟨S4x2048x8192, .f32⟩
  | .hbm, ⟨39, _⟩ => ⟨S4x2048x8192, .f32⟩
  | .hbm, ⟨40, _⟩ => ⟨S4x2048x8192, .f32⟩
  | .hbm, ⟨41, _⟩ => ⟨S_, .f32⟩
  | .hbm, ⟨42, _⟩ => ⟨S4x2048x8192, .f32⟩
  | .hbm, ⟨43, _⟩ => ⟨S4x2048x8192, .f32⟩
  | .hbm, ⟨44, _⟩ => ⟨S_, .f32⟩
  | .hbm, ⟨45, _⟩ => ⟨S4x2048, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_cst_11 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  reducesTo_S4x2048x3_S4x2048_d2 : S4x2048x3.ReducesTo [2] S4x2048
  bcast_S4x8192_S4x8192x1_0_1 : S4x8192.BroadcastsInDim S4x8192x1 (![0, 1] : Fin 2 → Fin S4x8192x1.rank)
  bcast_S4x2048_S4x1x2048_0_2 : S4x2048.BroadcastsInDim S4x1x2048 (![0, 2] : Fin 2 → Fin S4x1x2048.rank)
  bcast_S4x8192x1_S4x8192x2048_0_1_2 : S4x8192x1.BroadcastsInDim S4x8192x2048 (![0, 1, 2] : Fin 3 → Fin S4x8192x2048.rank)
  bcast_S4x1x2048_S4x8192x2048_0_1_2 : S4x1x2048.BroadcastsInDim S4x8192x2048 (![0, 1, 2] : Fin 3 → Fin S4x8192x2048.rank)
  bcast_S_S4x8192x2048 : S_.BroadcastsInDim S4x8192x2048 (![] : Fin 0 → Fin S4x8192x2048.rank)
  reducesTo_S4x8192x2048_S4x8192_d2 : S4x8192x2048.ReducesTo [2] S4x8192
  reducesTo_S4x8192_S_d0_1 : S4x8192.ReducesTo [0, 1] S_
  bcast_S4x2048_S4x2048x1_0_1 : S4x2048.BroadcastsInDim S4x2048x1 (![0, 1] : Fin 2 → Fin S4x2048x1.rank)
  bcast_S4x8192_S4x1x8192_0_2 : S4x8192.BroadcastsInDim S4x1x8192 (![0, 2] : Fin 2 → Fin S4x1x8192.rank)
  bcast_S4x2048x1_S4x2048x8192_0_1_2 : S4x2048x1.BroadcastsInDim S4x2048x8192 (![0, 1, 2] : Fin 3 → Fin S4x2048x8192.rank)
  bcast_S4x1x8192_S4x2048x8192_0_1_2 : S4x1x8192.BroadcastsInDim S4x2048x8192 (![0, 1, 2] : Fin 3 → Fin S4x2048x8192.rank)
  bcast_S_S4x2048x8192 : S_.BroadcastsInDim S4x2048x8192 (![] : Fin 0 → Fin S4x2048x8192.rank)
  reducesTo_S4x2048x8192_S4x2048_d2 : S4x2048x8192.ReducesTo [2] S4x2048
  reducesTo_S4x2048_S_d0_1 : S4x2048.ReducesTo [0, 1] S_
  dot_S4x8192x3_S4x2048x3_S4x8192x2048_2_2_1_1_0_0_wf : DotDims.WF S4x8192x3 S4x2048x3 S4x8192x2048 [2] [2] [1] [1] [0] [0]
  dot_S4x2048x3_S4x8192x3_S4x2048x8192_2_2_1_1_0_0_wf : DotDims.WF S4x2048x3 S4x8192x3 S4x2048x8192 [2] [2] [1] [1] [0] [0]

variable [Facts₀]

def dot_S4x8192x3_S4x2048x3_S4x8192x2048_2_2_1_1_0_0 : DotDims S4x8192x3 S4x2048x3 S4x8192x2048 where
  lhsContracting := [2]
  rhsContracting := [2]
  lhsNonContracting := [1]
  rhsNonContracting := [1]
  lhsBatch := [0]
  rhsBatch := [0]
  wf := dot_S4x8192x3_S4x2048x3_S4x8192x2048_2_2_1_1_0_0_wf
def dot_S4x2048x3_S4x8192x3_S4x2048x8192_2_2_1_1_0_0 : DotDims S4x2048x3 S4x8192x3 S4x2048x8192 where
  lhsContracting := [2]
  rhsContracting := [2]
  lhsNonContracting := [1]
  rhsNonContracting := [1]
  lhsBatch := [0]
  rhsBatch := [0]
  wf := dot_S4x2048x3_S4x8192x3_S4x2048x8192_2_2_1_1_0_0_wf

class Facts : Prop extends Facts₀ where

variable [Facts]
-- ==== Proof.Pieces.lean ====
import proofs.«154890_j19061064860389_2_alg».proof.Proof.Gen.KernelIdeal.Frame
import Idealize.ShloMosaic.Lib.Pipeline.Value
import Idealize.ShloMosaic.Lib.Tactic

/-!
# What one grid point leaves in the two accumulators and in the output block

A grid point `(b, j)` sees the `j`-th tile of 512 points of batch `b` (`x0`) and all 2048 points of the other
set (`x1`). It carries two accumulators between points: a row of 2048 running minima (`xs0`) and one running
sum (`xs1`). At the first tile of a batch both are reset (to `+∞` and to `0`) before they are updated; at the
last tile the output block is written from the updated accumulators. Each lemma says what a point of that
kind leaves, as the body's own arithmetic of what it found.
-/

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a batch's first tile the running minima are the tile's column minima taken against the reset row of `+∞`. -/
theorem minima_first (c : Dev nD) (i : grid0.Coords) (arg2 : Memref sig .tc .vmem S1x3x512 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x3x512 .f32) (x1 : Vec F S1x3x2048 .f32) :
    sout0_A_0 c i arg2 harg2 arg3 harg3 arg4 harg4 arg5 harg5 arg6 harg6 hc0 hc1 x0 x1 = k0_pay2 (k0_pay6 x0 x1) (k0_pay4 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x2048) hz2]
  simp only [View.readCov_unit_zero (S := S1x2048) _ hz2, View.readAt_eq_ld, harg2.read_unread, harg3.read_unread, harg4.read_unread, harg5.read_unread, harg6.read_unread, View.ld_unit_zero (S := S1x2048) hz2, View.ld_unit_zero (S := S1x1) hz2, View.ld_unit_zero (S := S1x3x512) hz3, View.ld_unit_zero (S := S1x3x2048) hz3, View.ld_unit_zero (S := S1x1x1) hz3]

/-- At a batch's first tile the running sum is the tile's sum of row minima added to the reset `0`. -/
theorem sum_first (c : Dev nD) (i : grid0.Coords) (arg2 : Memref sig .tc .vmem S1x3x512 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x3x512 .f32) (x1 : Vec F S1x3x2048 .f32) :
    sout0_A_1 c i arg2 harg2 arg3 harg3 arg4 harg4 arg5 harg5 arg6 harg6 hc0 hc1 x0 x1 = k0_pay1 (k0_pay7 x0 x1 (k0_pay5 (F := F))) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1x1) hz2]
  simp only [View.readCov_unit_zero (S := S1x1) _ hz2, View.readAt_eq_ld, harg2.read_unread, harg3.read_unread, harg4.read_unread, harg5.read_unread, harg6.read_unread, View.ld_unit_zero (S := S1x2048) hz2, View.ld_unit_zero (S := S1x1) hz2, View.ld_unit_zero (S := S1x3x512) hz3, View.ld_unit_zero (S := S1x3x2048) hz3, View.ld_unit_zero (S := S1x1x1) hz3]

/-- At a later tile that is not the last the running minima are updated from what the tile before left. -/
theorem minima_next (c : Dev nD) (i : grid0.Coords) (arg2 : Memref sig .tc .vmem S1x3x512 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x3x512 .f32) (x1 : Vec F S1x3x2048 .f32) (xs0 : Vec F S1x2048 .f32) (xs1 : Vec F S1x1 .f32) :
    sout0_B_0 c i arg2 harg2 arg3 harg3 arg4 harg4 arg5 harg5 arg6 harg6 hc0 hc1 x0 x1 xs0 xs1 = k0_pay2 (k0_pay6 x0 x1) xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, harg4.read_unread, harg5.read_unread, harg6.read_unread, View.ld_unit_zero (S := S1x2048) hz2, View.ld_unit_zero (S := S1x1) hz2, View.ld_unit_zero (S := S1x3x512) hz3, View.ld_unit_zero (S := S1x3x2048) hz3, View.ld_unit_zero (S := S1x1x1) hz3]

/-- At a later tile that is not the last the running sum is updated from what the tile before left. -/
theorem sum_next (c : Dev nD) (i : grid0.Coords) (arg2 : Memref sig .tc .vmem S1x3x512 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x3x512 .f32) (x1 : Vec F S1x3x2048 .f32) (xs0 : Vec F S1x2048 .f32) (xs1 : Vec F S1x1 .f32) :
    sout0_B_1 c i arg2 harg2 arg3 harg3 arg4 harg4 arg5 harg5 arg6 harg6 hc0 hc1 x0 x1 xs0 xs1 = k0_pay1 (k0_pay7 x0 x1 xs1) := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, harg4.read_unread, harg5.read_unread, harg6.read_unread, View.ld_unit_zero (S := S1x2048) hz2, View.ld_unit_zero (S := S1x1) hz2, View.ld_unit_zero (S := S1x3x512) hz3, View.ld_unit_zero (S := S1x3x2048) hz3, View.ld_unit_zero (S := S1x1x1) hz3]

/-- At the last tile the running minima are updated in the same way. -/
theorem minima_last (c : Dev nD) (i : grid0.Coords) (arg2 : Memref sig .tc .vmem S1x3x512 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x3x512 .f32) (x1 : Vec F S1x3x2048 .f32) (xs0 : Vec F S1x2048 .f32) (xs1 : Vec F S1x1 .f32) :
    sout0_C_0 c i arg2 harg2 arg3 harg3 arg4 harg4 arg5 harg5 arg6 harg6 hc0 hc1 x0 x1 xs0 xs1 = k0_pay2 (k0_pay6 x0 x1) xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg4.read_unread, harg5.read_unread, harg6.read_unread, View.ld_unit_zero (S := S1x2048) hz2, View.ld_unit_zero (S := S1x1) hz2, View.ld_unit_zero (S := S1x3x512) hz3, View.ld_unit_zero (S := S1x3x2048) hz3, View.ld_unit_zero (S := S1x1x1) hz3]

/-- At the last tile the running sum is updated in the same way. -/
theorem sum_last (c : Dev nD) (i : grid0.Coords) (arg2 : Memref sig .tc .vmem S1x3x512 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x3x512 .f32) (x1 : Vec F S1x3x2048 .f32) (xs0 : Vec F S1x2048 .f32) (xs1 : Vec F S1x1 .f32) :
    sout0_C_1 c i arg2 harg2 arg3 harg3 arg4 harg4 arg5 harg5 arg6 harg6 hc0 hc1 x0 x1 xs0 xs1 = k0_pay1 (k0_pay7 x0 x1 xs1) := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg4.read_unread, harg5.read_unread, harg6.read_unread, View.ld_unit_zero (S := S1x2048) hz2, View.ld_unit_zero (S := S1x1) hz2, View.ld_unit_zero (S := S1x3x512) hz3, View.ld_unit_zero (S := S1x3x2048) hz3, View.ld_unit_zero (S := S1x1x1) hz3]

/-- At the last tile the output block is the updated running sum plus the sum of the updated running minima. -/
theorem out_last (c : Dev nD) (i : grid0.Coords) (arg2 : Memref sig .tc .vmem S1x3x512 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x3x512 .f32) (x1 : Vec F S1x3x2048 .f32) (xs0 : Vec F S1x2048 .f32) (xs1 : Vec F S1x1 .f32) :
    out0_C_2 c i arg2 harg2 arg3 harg3 arg4 harg4 arg5 harg5 arg6 harg6 hc0 hc1 x0 x1 xs0 xs1 = k0_pay3 (k0_pay2 (k0_pay6 x0 x1) xs0) (k0_pay1 (k0_pay7 x0 x1 xs1)) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz3]
  simp only [View.readCov_unit_zero (S := S1x2048) _ hz2, View.readCov_unit_zero (S := S1x1) _ hz2, View.readAt_eq_ld, harg2.read_unread, harg3.read_unread, harg4.read_unread, harg5.read_unread, harg6.read_unread, View.ld_unit_zero (S := S1x2048) hz2, View.ld_unit_zero (S := S1x1) hz2, View.ld_unit_zero (S := S1x3x512) hz3, View.ld_unit_zero (S := S1x3x2048) hz3, View.ld_unit_zero (S := S1x1x1) hz3]

end Cert.KernelIdeal.Pieces

end
-- ==== Proof.Dist.lean ====
import Idealize.ShloMosaic.PureOps.Ideal
import Idealize.ShloMosaic.PureOps.Ideal.Laws
import Idealize.ShloMosaic.Lib.ValueIdx

/-!
# Nearest-neighbour sums of squared distances, over the extended reals

Two families of points with three coordinates each, `P b n` (`n` in a large set) and `Q b q` (`q` in a
smaller one), for each batch `b`. The symmetric nearest-neighbour sum adds, over every batch, for every
`P`-point the squared distance to its nearest `Q`-point and for every `Q`-point the squared distance to its
nearest `P`-point. The squared distance is written in two ways: coordinate differences squared and added
(`sqDist`), and the two squared norms less twice the inner product, floored at zero (`sqDistNorms`). For
real coordinates the two agree; at an infinite coordinate they need not, which is why finiteness is assumed
where they are identified.
-/

noncomputable section

namespace Cert.Nearest

open Idealize.ShloMosaic

/-- The squared distance of two points, the coordinate differences squared and added in coordinate order. -/
def sqDist (p q : Fin 3 → EReal) : EReal :=
  (p 0 - q 0) * (p 0 - q 0) + (p 1 - q 1) * (p 1 - q 1) + (p 2 - q 2) * (p 2 - q 2)

/-- The squared distance through the squared norms and the inner product, each a sum started from `zero`,
    floored at `zero`: `max ((|p|² + |q|²) - two · ⟨p, q⟩) zero`. -/
def sqDistNorms (zero two : EReal) (p q : Fin 3 → EReal) : EReal :=
  max (((zero + ∑ k : Fin 3, p k * p k) + (zero + ∑ k : Fin 3, q k * q k)) - two * ∑ k : Fin 3, p k * q k) zero

/-- For every `a` the least `d a b` over `b`, added over `a`. -/
def nearestSum {A B : Type} [Fintype A] [Fintype B] (d : A → B → EReal) : EReal :=
  ∑ a : A, Finset.univ.inf (fun b : B => d a b)

/-- The symmetric sum, batch by batch: per batch the two directions are added, the batches are added from
    `zero`, and the total is scaled by `c`. -/
def perBatch {NB NP NQ : Nat} (zero c : EReal) (P : Fin NB → Fin NP → Fin 3 → EReal) (Q : Fin NB → Fin NQ → Fin 3 → EReal) : EReal :=
  (zero + ∑ b : Fin NB, (nearestSum (fun n q => sqDist (P b n) (Q b q)) + nearestSum (fun q n => sqDist (P b n) (Q b q)))) * c

/-- The symmetric sum, direction by direction: each direction is added over all batches and points from
    `zero`, through the norm form of the distance, and the two totals are added and scaled by `c`. -/
def perDirection {NB NP NQ : Nat} (zero two c : EReal) (P : Fin NB → Fin NP → Fin 3 → EReal) (Q : Fin NB → Fin NQ → Fin 3 → EReal) : EReal :=
  ((zero + ∑ b : Fin NB, ∑ n : Fin NP, Finset.univ.inf (fun q : Fin NQ => sqDistNorms zero two (P b n) (Q b q)))
    + (zero + ∑ b : Fin NB, ∑ q : Fin NQ, Finset.univ.inf (fun n : Fin NP => sqDistNorms zero two (Q b q) (P b n)))) * c

end Cert.Nearest

end
-- ==== Proof.LibMinReduce.lean ====
import Idealize.ShloMosaic.PureOps.Ideal.Laws

/-!
# Minimum reductions over the extended reals

Three facts used wherever a minimum is taken along one axis: the single-precision word `0x7F800000` is `+∞`,
the top element; a fold of `min` started from the top element is the infimum of the family; and a
`minimumf` reduction of a vector along one axis is, at each reduced index, the fold of `min` from the
accumulator's value over that axis's coordinates (the companion of the library's reading of a `maximumf`
reduction). Stated for any shapes, axis and index type.
-/

noncomputable section

open Idealize.ShloMosaic

namespace Cert.LibMinReduce

/-- A fold of `min` from the top element is the infimum. -/
theorem fold_min_top {ι : Type} (s : Finset ι) (f : ι → EReal) : s.fold min ⊤ f = s.inf f := by
  classical
  induction s using Finset.induction_on with
  | empty => simp
  | insert a s ha ih => rw [Finset.fold_insert ha, Finset.inf_insert, ih]

/-- The bit pattern of `+∞` is the top element. -/
theorem ofBits_inf : Ideal.ofBits .f32 0x7F800000#32 = (⊤ : EReal) := by simp [Ideal.ofBits, Ideal.ieee]

/-- A `minimumf` reduction over one axis, read over the extended reals: the fold of `min` from the
    accumulator's value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.LibMinReduce

end
-- ==== Proof.Tile.lean ====
import proofs.«154890_j19061064860389_2_alg».proof.Proof.Gen.KernelIdeal.Skeleton
import proofs.«154890_j19061064860389_2_alg».proof.Proof.Dist
import Idealize.ShloMosaic.Lib.Pipeline.Value
import Idealize.ShloMosaic.Lib.ValueIdx
import Idealize.ShloMosaic.Lib.ValueLayout
import Idealize.ShloMosaic.PureOps.Ideal.Laws
import proofs.«154890_j19061064860389_2_alg».proof.Proof.LibMinReduce

/-!
# One tile's arithmetic, entry by entry, over the extended reals

A tile holds 512 points `x0 (0, k, r)` (coordinate `k`, point `r`) and 2048 points `x1 (0, k, q)`. Its table of
squared distances at `(r, q)` is `sqDist` of the two points; the running minima at `q` are lowered by the
least entry of column `q`; the running sum grows by the sum over `r` of the least entry of row `r`; the
output is the running sum plus the sum of the running minima.
-/

set_option maxRecDepth 16384

noncomputable section

open Idealize.ShloMosaic Idealize.ShloMosaic.ValueIdx

namespace Cert.KernelIdeal.Tile

open Cert.KernelIdeal Cert.KernelIdeal.Gen Cert.LibMinReduce

/-- Coordinate `k` of the tile's points, spread along the rows of the 512 × 2048 table: entry `(r, q)` is
    coordinate `k` of point `r`. -/
theorem rows_apply (x0 : S1x3x512.Idx → EReal) (off : Fin 3 → Nat) (k : Fin 3) (hoff : off = ![0, k.val, 0])
    (hs : S1x3x512.Slices off S1x1x512) (r : Fin 512) (q : Fin 2048) :
    broadcastTo S1x512x2048 (shapeCast S1x512x1 (shapeCast S1x512 (extractStridedSlice S1x1x512 off x0 hs) shapeCasts_S1x1x512_S1x512) shapeCasts_S1x512_S1x512x1) broadcasts_S1x512x1_S1x512x2048 (ix3 0 r q)
      = x0 (ix3 0 k r) := by
  subst hoff
  refine (broadcastTo_apply _ _ (ix3 0 r q) (ix3 0 r 0) (fun a => by match a with | ⟨0, _⟩ => rfl | ⟨1, _⟩ => rfl | ⟨2, _⟩ => rfl)).trans ?_
  refine (shapeCast_apply _ _ (ix3 0 r 0) (ix2 0 r) (by rw [Shape.rowMajor_val_two, Shape.rowMajor_val_three]; simp)).trans ?_
  refine (shapeCast_apply _ _ (ix2 0 r) (ix3 0 0 r) (by rw [Shape.rowMajor_val_two, Shape.rowMajor_val_three]; simp)).trans ?_
  exact extractStridedSlice_apply _ _ _ (ix3 0 0 r) (ix3 0 k r) (fun a => by match a with | ⟨0, _⟩ => rfl | ⟨1, _⟩ => simp | ⟨2, _⟩ => simp)

/-- Coordinate `k` of the other set's points, spread along the columns: entry `(r, q)` is coordinate `k` of
    point `q`. -/
theorem cols_apply (x1 : S1x3x2048.Idx → EReal) (off : Fin 3 → Nat) (k : Fin 3) (hoff : off = ![0, k.val, 0])
    (hs : S1x3x2048.Slices off S1x1x2048) (r : Fin 512) (q : Fin 2048) :
    broadcastTo S1x512x2048 (shapeCast S1x1x2048 (shapeCast S1x2048 (extractStridedSlice S1x1x2048 off x1 hs) shapeCasts_S1x1x2048_S1x2048) shapeCasts_S1x2048_S1x1x2048) broadcasts_S1x1x2048_S1x512x2048 (ix3 0 r q)
      = x1 (ix3 0 k q) := by
  subst hoff
  refine (broadcastTo_apply _ _ (ix3 0 r q) (ix3 0 0 q) (fun a => by match a with | ⟨0, _⟩ => rfl | ⟨1, _⟩ => rfl | ⟨2, _⟩ => rfl)).trans ?_
  refine (shapeCast_apply _ _ (ix3 0 0 q) (ix2 0 q) (by rw [Shape.rowMajor_val_two, Shape.rowMajor_val_three]; simp)).trans ?_
  refine (shapeCast_apply _ _ (ix2 0 q) (ix3 0 0 q) (by rw [Shape.rowMajor_val_two, Shape.rowMajor_val_three]; simp)).trans ?_
  exact extractStridedSlice_apply _ _ _ (ix3 0 0 q) (ix3 0 k q) (fun a => by match a with | ⟨0, _⟩ => rfl | ⟨1, _⟩ => simp | ⟨2, _⟩ => simp)

/-- The table of squared distances at `(r, q)`. -/
theorem table_apply (x0 : Vec Ideal S1x3x512 .f32) (x1 : Vec Ideal S1x3x2048 .f32) (r : Fin 512) (q : Fin 2048) :
    k0_pay6 (F := Ideal) x0 x1 (ix3 0 r q)
      = Cert.Nearest.sqDist (fun k => x0 (ix3 0 k r)) (fun k => x1 (ix3 0 k q)) := by
  unfold k0_pay6
  simp only [shapeCast_self]
  show (_ - _) * (_ - _) + (_ - _) * (_ - _) + (_ - _) * (_ - _) = _
  rw [rows_apply x0 ![0, 0, 0] 0 rfl, rows_apply x0 ![0, 1, 0] 1 rfl, rows_apply x0 ![0, 2, 0] 2 rfl, cols_apply x1 ![0, 0, 0] 0 rfl, cols_apply x1 ![0, 1, 0] 1 rfl, cols_apply x1 ![0, 2, 0] 2 rfl]
  rfl

/-- The least entry of column `q` of a 512 × 2048 table. -/
theorem colmin_apply (v : FVec Ideal S1x512x2048 .f32) (hφ : FKind.Formats .f32)
    (hacc : (0x7F800000#32 : BitVec 32) = 0x7F800000#32) (q : Fin 2048) :
    multiReduction .minimumf [1] S1x2048 v 0x7F800000#32 reduces_S1x512x2048_S1x2048 hφ hacc (ix2 0 q)
      = (Finset.univ : Finset (Fin 512)).inf (fun r => v (ix3 0 r q)) := by
  refine (multiReduction_minimumf_single v 0x7F800000#32 reduces_S1x512x2048_S1x2048 hφ hacc (ix2 0 q)).trans ?_
  refine (congrArg (fun z => Finset.fold min z (v ∘ reduces_S1x512x2048_S1x2048.lift (ix2 0 q)) Finset.univ) ofBits_inf).trans ?_
  refine (fold_min_top _ _).trans ?_
  refine congrArg (Finset.inf Finset.univ) (funext fun r => congrArg v (funext fun a => Fin.ext ?_))
  match a with
  | ⟨0, _⟩ => rfl
  | ⟨1, _⟩ => rfl
  | ⟨2, _⟩ => rfl

/-- The least entry of row `r` of a 512 × 2048 table. -/
theorem rowmin_apply (v : FVec Ideal S1x512x2048 .f32) (hφ : FKind.Formats .f32)
    (hacc : (0x7F800000#32 : BitVec 32) = 0x7F800000#32) (r : Fin 512) :
    multiReduction .minimumf [2] S1x512 v 0x7F800000#32 reduces_S1x512x2048_S1x512 hφ hacc (ix2 0 r)
      = (Finset.univ : Finset (Fin 2048)).inf (fun q => v (ix3 0 r q)) := by
  refine (multiReduction_minimumf_single v 0x7F800000#32 reduces_S1x512x2048_S1x512 hφ hacc (ix2 0 r)).trans ?_
  refine (congrArg (fun z => Finset.fold min z (v ∘ reduces_S1x512x2048_S1x512.lift (ix2 0 r)) Finset.univ) ofBits_inf).trans ?_
  refine (fold_min_top _ _).trans ?_
  refine congrArg (Finset.inf Finset.univ) (funext fun q => congrArg v (funext fun a => Fin.ext ?_))
  match a with
  | ⟨0, _⟩ => rfl
  | ⟨1, _⟩ => rfl
  | ⟨2, _⟩ => rfl

/-- The sum of a row of `n` entries. -/
theorem rowsum_apply {n : Nat} (v : FVec Ideal ⟨2, ![1, n]⟩ .f32) (h : (⟨2, ![1, n]⟩ : Shape).Reduces [1] S1)
    (hφ : FKind.Formats .f32) (hacc : (0x00000000#32 : BitVec 32) = 0x00000000#32) :
    multiReduction .add [1] S1 v 0x00000000#32 h hφ hacc (ix1 0) = ∑ r : Fin n, v (ix2 0 r) := by
  refine (Ideal.multiReduction_add_single v 0x00000000#32 h hφ hacc (ix1 0)).trans ?_
  refine Finset.sum_congr rfl fun r _ => congrArg v (funext fun a => Fin.ext ?_)
  match a with
  | ⟨0, _⟩ => rfl
  | ⟨1, _⟩ => rfl

/-- The running minima after a tile: each is lowered by the least entry of its column. -/
theorem minima_apply (v : FVec Ideal S1x512x2048 .f32) (acc : Vec Ideal S1x2048 .f32) (q : Fin 2048) :
    k0_pay2 (F := Ideal) v acc (ix2 0 q) = min (acc (ix2 0 q)) ((Finset.univ : Finset (Fin 512)).inf (fun r => v (ix3 0 r q))) := by
  unfold k0_pay2
  simp only [shapeCast_self]
  show min _ _ = _
  exact congrArg (min _) (colmin_apply v _ _ q)

/-- The running sum after a tile: it grows by the sum over the tile's points of their least distances. -/
theorem sum_apply (x0 : Vec Ideal S1x3x512 .f32) (x1 : Vec Ideal S1x3x2048 .f32) (acc : Vec Ideal S1x1 .f32) :
    k0_pay1 (F := Ideal) (k0_pay7 x0 x1 acc) (ix2 0 0)
      = acc (ix2 0 0) + ∑ r : Fin 512, (Finset.univ : Finset (Fin 2048)).inf (fun q => k0_pay6 (F := Ideal) x0 x1 (ix3 0 r q)) := by
  unfold k0_pay1 k0_pay7
  simp only [shapeCast_self]
  show _ + _ = _
  refine congrArg (_ + ·) ?_
  refine (shapeCast_a_1a_apply _ _ 0 0).trans ?_
  refine (rowsum_apply _ _ _ _).trans ?_
  exact Finset.sum_congr rfl fun r _ => rowmin_apply _ _ _ r

/-- The output: the running sum plus the sum of the running minima. -/
theorem out_apply (mins : Vec Ideal S1x2048 .f32) (acc : Vec Ideal S1x1 .f32) :
    k0_pay3 (F := Ideal) mins acc (ix3 0 0 0) = acc (ix2 0 0) + ∑ q : Fin 2048, mins (ix2 0 q) := by
  unfold k0_pay3
  refine (shapeCast_ab_1ab_apply _ _ 0 0 0).trans ?_
  show _ + _ = _
  refine congrArg (_ + ·) ?_
  refine (shapeCast_a_1a_apply _ _ 0 0).trans ?_
  exact rowsum_apply _ _ _ _

/-- The reset row of minima is `+∞` everywhere. -/
theorem reset_minima_apply (i : S1x2048.Idx) : k0_pay4 (F := Ideal) i = ⊤ := by
  unfold k0_pay4
  simp only [shapeCast_self]
  exact ofBits_inf

/-- The reset sum is `0`. -/
theorem reset_sum_apply (i : S1x1.Idx) : k0_pay5 (F := Ideal) i = 0 := by
  unfold k0_pay5
  simp only [shapeCast_self]
  exact Ideal.ofBits_zero_f32

end Cert.KernelIdeal.Tile

end
-- ==== Proof.Tiles.lean ====
import proofs.«154890_j19061064860389_2_alg».proof.Proof.Dist

/-!
# 8192 points cut into 16 tiles of 512

Point `r` of tile `j` is point `512 j + r`. The points of the tiles before tile `j + 1` are those before tile `j`
together with tile `j`, so an infimum or a sum over them is got from the one before by one more tile; before
tile `0` there is nothing, before tile `16` everything.
-/

noncomputable section

namespace Cert.Nearest

/-- Point `r` of tile `j`. -/
def tilePt (j : Fin 16) (r : Fin 512) : Fin 8192 := ⟨512 * j.val + r.val, by have := j.isLt; have := r.isLt; omega⟩

@[simp] theorem tilePt_val (j : Fin 16) (r : Fin 512) : (tilePt j r).val = 512 * j.val + r.val := rfl

theorem tilePt_injective (j : Fin 16) : Function.Injective (tilePt j) := fun r r' h => by
  have := congrArg Fin.val h
  simp only [tilePt_val] at this
  exact Fin.ext (by omega)

/-- The points of the tiles before tile `j`. -/
def before (j : ℕ) : Finset (Fin 8192) := Finset.univ.filter (fun n => n.val < 512 * j)

theorem before_zero : before 0 = ∅ := by
  ext n; simp [before]

theorem before_all : before 16 = Finset.univ := by
  ext n; have := n.isLt; simp [before]

theorem before_succ (j : Fin 16) : before (j.val + 1) = before j.val ∪ Finset.univ.image (tilePt j) := by
  ext n
  simp only [before, Finset.mem_filter, Finset.mem_univ, true_and, Finset.mem_union, Finset.mem_image]
  constructor
  · intro h
    by_cases h' : n.val < 512 * j.val
    · exact Or.inl h'
    · exact Or.inr ⟨⟨n.val - 512 * j.val, by omega⟩, Fin.ext (by simp only [tilePt_val]; omega)⟩
  · rintro (h | ⟨r, rfl⟩)
    · omega
    · have := r.isLt; simp only [tilePt_val]; omega

theorem before_disjoint (j : Fin 16) : Disjoint (before j.val) (Finset.univ.image (tilePt j)) := by
  rw [Finset.disjoint_left]
  intro n hn hn'
  simp only [before, Finset.mem_filter, Finset.mem_univ, true_and] at hn
  obtain ⟨r, -, rfl⟩ := Finset.mem_image.1 hn'
  simp only [tilePt_val] at hn
  omega

/-- The least value over the tiles before `j + 1`: the least before `j`, or the least of tile `j`. -/
theorem inf_before_succ (j : Fin 16) (f : Fin 8192 → EReal) :
    (before (j.val + 1)).inf f = min ((before j.val).inf f) (Finset.univ.inf fun r : Fin 512 => f (tilePt j r)) := by
  rw [before_succ, Finset.inf_union, Finset.inf_image]
  rfl

/-- The sum over the tiles before `j + 1`: the sum before `j` plus tile `j`'s. -/
theorem sum_before_succ (j : Fin 16) (g : Fin 8192 → EReal) :
    ∑ n ∈ before (j.val + 1), g n = ∑ n ∈ before j.val, g n + ∑ r : Fin 512, g (tilePt j r) := by
  rw [before_succ, Finset.sum_union (before_disjoint j), Finset.sum_image (fun r _ r' _ h => tilePt_injective j h)]

end Cert.Nearest

end
-- ==== Proof.Fold.lean ====
import proofs.«154890_j19061064860389_2_alg».proof.Proof.Pieces
import proofs.«154890_j19061064860389_2_alg».proof.Proof.Tile
import proofs.«154890_j19061064860389_2_alg».proof.Proof.Tiles

/-!
# The two accumulators, grid point by grid point

Grid point `n` is tile `n % 16` of batch `n / 16`. After it, the row of running minima holds, for every
point `q` of the smaller set, the least squared distance to the points of the batch's tiles up to this one,
and the running sum holds the sum, over those same points, of their least squared distances to the smaller
set. After a batch's last tile the output block holds the sum of the two directions for that batch.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.Nearest

variable (m : (ℓ : Loc nD τ sig) → Buf (Elt Ideal) ℓ)

/-- The batch of grid point `n`. -/
def batchOf (n : ℕ) (h : n < cfg0.N) : Fin 4 := ⟨n / 16, by have : cfg0.N = 64 := N_0; omega⟩
/-- The tile of grid point `n`. -/
def tileOf (n : ℕ) (h : n < cfg0.N) : Fin 16 := ⟨n % 16, Nat.mod_lt _ (by decide)⟩

/-- The larger point set as the region finds it: coordinate `k` of point `n` of batch `b`. -/
def P (c : Dev nD) (b : Fin 4) (n : Fin 8192) (k : Fin 3) : EReal := (V m c main_v0 : S4x3x8192.Idx → EReal) (ix3 b k n)
/-- The smaller point set as the region finds it. -/
def Q (c : Dev nD) (b : Fin 4) (q : Fin 2048) (k : Fin 3) : EReal := (V m c main_v1 : S4x3x2048.Idx → EReal) (ix3 b k q)

/-- The squared distance of point `n` to point `q`, in batch `b`. -/
def D (c : Dev nD) (b : Fin 4) (n : Fin 8192) (q : Fin 2048) : EReal := sqDist (P m c b n) (Q m c b q)

theorem index0 : ∀ t : Fin cfg0.N, win0_0.index t 0 = t.val / 16 ∧ win0_0.index t 1 = 0 ∧ win0_0.index t 2 = t.val % 16 :=
  (by decide +kernel : ∀ t : Fin grid0.N, win0_0.index t 0 = t.val / 16 ∧ win0_0.index t 1 = 0 ∧ win0_0.index t 2 = t.val % 16)
theorem index1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)

/-- The block of the larger set at a grid point is its tile of its batch. -/
theorem blk0_apply (c : Dev nD) (t : Fin cfg0.N) (k : Fin 3) (r : Fin 512) :
    (iblk m c 0 t : S1x3x512.Idx → EReal) (ix3 0 k r) = P m c (batchOf t.val t.isLt) (tilePt (tileOf t.val t.isLt) r) k := by
  obtain ⟨h0, h1, h2⟩ := index0 t
  unfold iblk P
  rw [View.read_apply]
  show V m c main_v0 _ = V m c main_v0 _
  congr 1
  funext a
  apply Fin.ext
  match a with
  | ⟨0, _⟩ => show win0_0.index t 0 * 1 + 1 * 0 = t.val / 16; rw [h0]; omega
  | ⟨1, _⟩ => show win0_0.index t 1 * 3 + 1 * k.val = k.val; rw [h1]; omega
  | ⟨2, _⟩ => show win0_0.index t 2 * 512 + 1 * r.val = 512 * (t.val % 16) + r.val; rw [h2]; omega

/-- The block of the smaller set at a grid point is the whole set of its batch. -/
theorem blk1_apply (c : Dev nD) (t : Fin cfg0.N) (k : Fin 3) (q : Fin 2048) :
    (iblk m c 1 t : S1x3x2048.Idx → EReal) (ix3 0 k q) = Q m c (batchOf t.val t.isLt) q k := by
  obtain ⟨h0, h1, h2⟩ := index1 t
  unfold iblk Q
  rw [View.read_apply]
  show V m c main_v1 _ = V m c main_v1 _
  congr 1
  funext a
  apply Fin.ext
  match a with
  | ⟨0, _⟩ => show win0_1.index t 0 * 1 + 1 * 0 = t.val / 16; rw [h0]; omega
  | ⟨1, _⟩ => show win0_1.index t 1 * 3 + 1 * k.val = k.val; rw [h1]; omega
  | ⟨2, _⟩ => show win0_1.index t 2 * 2048 + 1 * q.val = q.val; rw [h2]; omega

/-- The table of squared distances at a grid point, entry `(r, q)`. -/
theorem table_at (c : Dev nD) (t : Fin cfg0.N) (r : Fin 512) (q : Fin 2048) :
    k0_pay6 (F := Ideal) (iblk m c 0 t) (iblk m c 1 t) (ix3 0 r q)
      = D m c (batchOf t.val t.isLt) (tilePt (tileOf t.val t.isLt) r) q := by
  refine (Tile.table_apply (iblk m c 0 t) (iblk m c 1 t) r q).trans ?_
  unfold D
  refine congrArg₂ sqDist (funext fun k => blk0_apply m c t k r) (funext fun k => blk1_apply m c t k q)

/-- One tile's update of the two accumulators: from the least distances and the sum over the tiles before
    this one to those over the tiles up to this one. -/
theorem step (c : Dev nD) (t : Fin cfg0.N) (mins : Vec Ideal S1x2048 .f32) (acc : Vec Ideal S1x1 .f32)
    (hm : ∀ q : Fin 2048, mins (ix2 0 q) = (before (tileOf t.val t.isLt).val).inf (fun n' => D m c (batchOf t.val t.isLt) n' q))
    (ha : acc (ix2 0 0) = ∑ n' ∈ before (tileOf t.val t.isLt).val, Finset.univ.inf (fun q : Fin 2048 => D m c (batchOf t.val t.isLt) n' q)) :
    (∀ q : Fin 2048, k0_pay2 (F := Ideal) (k0_pay6 (iblk m c 0 t) (iblk m c 1 t)) mins (ix2 0 q)
        = (before ((tileOf t.val t.isLt).val + 1)).inf (fun n' => D m c (batchOf t.val t.isLt) n' q))
    ∧ k0_pay1 (F := Ideal) (k0_pay7 (iblk m c 0 t) (iblk m c 1 t) acc) (ix2 0 0)
        = ∑ n' ∈ before ((tileOf t.val t.isLt).val + 1), Finset.univ.inf (fun q : Fin 2048 => D m c (batchOf t.val t.isLt) n' q) := by
  refine ⟨fun q => ?_, ?_⟩
  · refine (Tile.minima_apply _ mins q).trans ?_
    rw [hm q, inf_before_succ]
    exact congrArg (min _) (congrArg (Finset.inf Finset.univ) (funext fun r => table_at m c t r q))
  · refine (Tile.sum_apply _ _ acc).trans ?_
    rw [ha, sum_before_succ]
    exact congrArg (_ + ·) (Finset.sum_congr rfl fun r _ => congrArg (Finset.inf Finset.univ) (funext fun q => table_at m c t r q))

/-- What the two accumulators hold after grid point `n`. -/
def Inv (c : Dev nD) (n : ℕ) (h : n < cfg0.N) : Prop :=
  (∀ q : Fin 2048, ((outsAt0 m c n h).2.1 : S1x2048.Idx → EReal) (ix2 0 q)
      = (before ((tileOf n h).val + 1)).inf (fun n' => D m c (batchOf n h) n' q))
  ∧ ((outsAt0 m c n h).2.2 : S1x1.Idx → EReal) (ix2 0 0)
      = ∑ n' ∈ before ((tileOf n h).val + 1), Finset.univ.inf (fun q : Fin 2048 => D m c (batchOf n h) n' q)

/-- At a batch's first tile the accumulators start from `+∞` and `0`: nothing comes before. -/
theorem inv_first (c : Dev nD) (t : Fin cfg0.N) (h0 : t.val % 16 = 0) : Inv m c t.val t.isLt := by
  have h1 : ¬t.val % 16 = 15 := by omega
  have e := outsAt0_A m c t h0 h1
  have hj : (tileOf t.val t.isLt).val = 0 := h0
  have hs := step m c t (k0_pay4 (F := Ideal)) (k0_pay5 (F := Ideal))
    (fun q => by rw [hj, before_zero, Finset.inf_empty]; exact Tile.reset_minima_apply _)
    (by rw [hj, before_zero, Finset.sum_empty]; exact Tile.reset_sum_apply _)
  refine ⟨fun q => ?_, ?_⟩
  · have e' := congrArg (fun z => (z.2.1 : S1x2048.Idx → EReal) (ix2 0 q)) e
    dsimp only at e'
    have p := Pieces.minima_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)
    exact e'.trans ((congrFun p (ix2 0 q)).trans (hs.1 q))
  · have e' := congrArg (fun z => (z.2.2 : S1x1.Idx → EReal) (ix2 0 0)) e
    dsimp only at e'
    have p := Pieces.sum_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)
    exact e'.trans ((congrFun p (ix2 0 0)).trans hs.2)

/-- What the step of a later tile starts from: the accumulators of the tile before, of the same batch. -/
theorem prev_eq (c : Dev nD) (n : ℕ) (h : n + 1 < cfg0.N) (h0 : ¬(n + 1) % 16 = 0) (prev : Inv m c n (Nat.lt_of_succ_lt h)) :
    (∀ q : Fin 2048, ((outsAt0 m c n (Nat.lt_of_succ_lt h)).2.1 : S1x2048.Idx → EReal) (ix2 0 q)
        = (before (tileOf (n + 1) h).val).inf (fun n' => D m c (batchOf (n + 1) h) n' q))
    ∧ ((outsAt0 m c n (Nat.lt_of_succ_lt h)).2.2 : S1x1.Idx → EReal) (ix2 0 0)
        = ∑ n' ∈ before (tileOf (n + 1) h).val, Finset.univ.inf (fun q : Fin 2048 => D m c (batchOf (n + 1) h) n' q) := by
  have hb : batchOf n (Nat.lt_of_succ_lt h) = batchOf (n + 1) h := Fin.ext (by show n / 16 = (n + 1) / 16; omega)
  have ht : (tileOf n (Nat.lt_of_succ_lt h)).val + 1 = (tileOf (n + 1) h).val := by show n % 16 + 1 = (n + 1) % 16; omega
  rw [← hb, ← ht]
  exact prev

/-- At a later tile the accumulators are updated from the tile before. -/
theorem inv_next (c : Dev nD) (n : ℕ) (h : n + 1 < cfg0.N) (h0 : ¬(n + 1) % 16 = 0) (prev : Inv m c n (Nat.lt_of_succ_lt h)) :
    Inv m c (n + 1) h := by
  obtain ⟨pm, pa⟩ := prev_eq m c n h h0 prev
  let t : Fin cfg0.N := ⟨n + 1, h⟩
  have hs := step m c t (outsAt0 m c n (Nat.lt_of_succ_lt h)).2.1 (outsAt0 m c n (Nat.lt_of_succ_lt h)).2.2 pm pa
  by_cases h1 : (n + 1) % 16 = 15
  · have e := outsAt0_C m c t h0 h1
    refine ⟨fun q => ?_, ?_⟩
    · have e' := congrArg (fun z => (z.2.1 : S1x2048.Idx → EReal) (ix2 0 q)) e
      dsimp only at e'
      have p := Pieces.minima_last (F := Ideal) c (grid0.coords t) (ms0_0 t) (hs0_0 t) (ms0_1 t) (hs0_1 t) (ms0_2 t) (hs0_2 t) scM0_0 (Memref.isWhole_whole _) scM0_1 (Memref.isWhole_whole _) (fun h' => h0 ((hcond0_0 t).mp h')) ((hcond0_1 t).mpr h1) (iblk m c 0 t) (iblk m c 1 t) (outsAt0 m c n (Nat.lt_of_succ_lt h)).2.1 (outsAt0 m c n (Nat.lt_of_succ_lt h)).2.2
      exact e'.trans ((congrFun p (ix2 0 q)).trans (hs.1 q))
    · have e' := congrArg (fun z => (z.2.2 : S1x1.Idx → EReal) (ix2 0 0)) e
      dsimp only at e'
      have p := Pieces.sum_last (F := Ideal) c (grid0.coords t) (ms0_0 t) (hs0_0 t) (ms0_1 t) (hs0_1 t) (ms0_2 t) (hs0_2 t) scM0_0 (Memref.isWhole_whole _) scM0_1 (Memref.isWhole_whole _) (fun h' => h0 ((hcond0_0 t).mp h')) ((hcond0_1 t).mpr h1) (iblk m c 0 t) (iblk m c 1 t) (outsAt0 m c n (Nat.lt_of_succ_lt h)).2.1 (outsAt0 m c n (Nat.lt_of_succ_lt h)).2.2
      exact e'.trans ((congrFun p (ix2 0 0)).trans hs.2)
  · have e := outsAt0_B m c t h0 h1
    refine ⟨fun q => ?_, ?_⟩
    · have e' := congrArg (fun z => (z.2.1 : S1x2048.Idx → EReal) (ix2 0 q)) e
      dsimp only at e'
      have p := Pieces.minima_next (F := Ideal) c (grid0.coords t) (ms0_0 t) (hs0_0 t) (ms0_1 t) (hs0_1 t) (ms0_2 t) (hs0_2 t) scM0_0 (Memref.isWhole_whole _) scM0_1 (Memref.isWhole_whole _) (fun h' => h0 ((hcond0_0 t).mp h')) (fun h' => h1 ((hcond0_1 t).mp h')) (iblk m c 0 t) (iblk m c 1 t) (outsAt0 m c n (Nat.lt_of_succ_lt h)).2.1 (outsAt0 m c n (Nat.lt_of_succ_lt h)).2.2
      exact e'.trans ((congrFun p (ix2 0 q)).trans (hs.1 q))
    · have e' := congrArg (fun z => (z.2.2 : S1x1.Idx → EReal) (ix2 0 0)) e
      dsimp only at e'
      have p := Pieces.sum_next (F := Ideal) c (grid0.coords t) (ms0_0 t) (hs0_0 t) (ms0_1 t) (hs0_1 t) (ms0_2 t) (hs0_2 t) scM0_0 (Memref.isWhole_whole _) scM0_1 (Memref.isWhole_whole _) (fun h' => h0 ((hcond0_0 t).mp h')) (fun h' => h1 ((hcond0_1 t).mp h')) (iblk m c 0 t) (iblk m c 1 t) (outsAt0 m c n (Nat.lt_of_succ_lt h)).2.1 (outsAt0 m c n (Nat.lt_of_succ_lt h)).2.2
      exact e'.trans ((congrFun p (ix2 0 0)).trans hs.2)

/-- After every grid point the accumulators hold the least distances and the sum over the batch's tiles so far. -/
theorem inv (c : Dev nD) : ∀ (n : ℕ) (h : n < cfg0.N), Inv m c n h
  | 0, h => inv_first m c ⟨0, h⟩ rfl
  | n + 1, h => by
    by_cases h0 : (n + 1) % 16 = 0
    · exact inv_first m c ⟨n + 1, h⟩ h0
    · exact inv_next m c n h h0 (inv c n (Nat.lt_of_succ_lt h))

/-- After a batch's last tile the output block holds the batch's sum of the two directions. -/
theorem out_eq (c : Dev nD) (t : Fin cfg0.N) (h1 : t.val % 16 = 15) :
    ((outsAt0 m c t.val t.isLt).1 : S1x1x1.Idx → EReal) (ix3 0 0 0)
      = nearestSum (fun n q => D m c (batchOf t.val t.isLt) n q) + nearestSum (fun q n => D m c (batchOf t.val t.isLt) n q) := by
  obtain ⟨n, h⟩ := t
  cases n with
  | zero => exact absurd h1 (by show ¬(0 % 16 = 15); decide)
  | succ n =>
    have h0 : ¬(n + 1) % 16 = 0 := by dsimp only at h1; omega
    have h1' : (n + 1) % 16 = 15 := h1
    obtain ⟨pm, pa⟩ := prev_eq m c n h h0 (inv m c n (Nat.lt_of_succ_lt h))
    let t : Fin cfg0.N := ⟨n + 1, h⟩
    have hs := step m c t (outsAt0 m c n (Nat.lt_of_succ_lt h)).2.1 (outsAt0 m c n (Nat.lt_of_succ_lt h)).2.2 pm pa
    have hj : (tileOf (n + 1) h).val + 1 = 16 := by show (n + 1) % 16 + 1 = 16; omega
    have e := outsAt0_C m c t h0 h1'
    have e' := congrArg (fun z => (z.1 : S1x1x1.Idx → EReal) (ix3 0 0 0)) e
    dsimp only at e'
    have p := Pieces.out_last (F := Ideal) c (grid0.coords t) (ms0_0 t) (hs0_0 t) (ms0_1 t) (hs0_1 t) (ms0_2 t) (hs0_2 t) scM0_0 (Memref.isWhole_whole _) scM0_1 (Memref.isWhole_whole _) (fun h' => h0 ((hcond0_0 t).mp h')) ((hcond0_1 t).mpr h1') (iblk m c 0 t) (iblk m c 1 t) (outsAt0 m c n (Nat.lt_of_succ_lt h)).2.1 (outsAt0 m c n (Nat.lt_of_succ_lt h)).2.2
    refine e'.trans ((congrFun p (ix3 0 0 0)).trans ?_)
    refine (Tile.out_apply _ _).trans ?_
    rw [hs.2, hj, before_all]
    refine congrArg₂ (· + ·) rfl (Finset.sum_congr rfl fun q _ => ?_)
    rw [hs.1 q, hj, before_all]

end Cert.KernelIdeal.Fold

end
-- ==== Proof.Final.lean ====
import proofs.«154890_j19061064860389_2_alg».proof.Proof.Fold

/-!
# The output array after the run

The output has one entry per batch. Its block at a grid point is written back only after the batch's last
tile, and then holds the batch's sum of the two directions; the four blocks written back are the four
entries, so the array ends holding, at batch `b`, that batch's sum.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.Nearest

variable (m : (ℓ : Loc nD τ sig) → Buf (Elt Ideal) ℓ)

/-- A batch's sum of the two directions. -/
def batchSum (c : Dev nD) (b : Fin 4) : EReal :=
  nearestSum (fun n q => D m c b n q) + nearestSum (fun q n => D m c b n q)

/-- The output array: at batch `b` the batch's sum. -/
def outArr (c : Dev nD) : S4x1x1.Idx → EReal := fun i => batchSum m c (i 0)

theorem index2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

/-- What a point that writes back writes: its batch's entry of the output array. -/
theorem flushed_eq (c : Dev nD) (t : Fin cfg0.N) (hf : (cfg0.win 2).flush t = true) :
    (dats m 0 c).flushed 2 t = ((cfg0.win 2).blk t).view.read (Elt Ideal) (outArr m c) := by
  have h15 : t.val % 16 = 15 := (flush0_2 t).mp hf
  obtain ⟨e0, e1, e2⟩ := index2 t
  show (cfg0.win 2).cut (grid0.coords t) ((dats m 0 c).after 2 t) = _
  rw [after0_2]
  funext y
  have hy : y = ix3 0 0 0 := funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
  subst hy
  show ((outsAt0 m c t.val t.isLt).1 : S1x1x1.Idx → EReal) (ix3 0 0 0) = outArr m c (((cfg0.win 2).blk t).view.emb (ix3 0 0 0))
  rw [out_eq m c t h15]
  unfold outArr batchSum
  have hb : batchOf t.val t.isLt = (((cfg0.win 2).blk t).view.emb (ix3 0 0 0) : S4x1x1.Idx) 0 :=
    Fin.ext (by show t.val / 16 = win0_2.index t 0 * 1 + 1 * 0; rw [e0]; omega)
  rw [hb]

/-- An index of the array is in a point's block iff each coordinate is in the block's range on its axis. -/
theorem mem_blk (t : Fin cfg0.N) (i : S4x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v2).slice (win0_2.rect t)).set ↔ _
  rw [View.set_slice_whole, Rect.mem_set_unit]
  exact Iff.rfl

/-- The array after the run. -/
theorem final (c : Dev nD) : (dats m 0 c).arrAt 2 cfg0.N = outArr m c :=
  (dats m 0 c).arrAt_eq_of_cover 2 (outArr m c) (flushed_eq m c) fun i => by
    have hi0 : (i 0).val < 4 := (i 0).isLt
    have hi1 : (i 1).val < 1 := (i 1).isLt
    have hi2 : (i 2).val < 1 := (i 2).isLt
    have hN : cfg0.N = 64 := N_0
    let t : Fin cfg0.N := ⟨16 * (i 0).val + 15, by omega⟩
    obtain ⟨e0, e1, e2⟩ := index2 t
    have tv : t.val = 16 * (i 0).val + 15 := rfl
    refine ⟨t, (flush0_2 t).mpr (by rw [tv]; omega), ?_⟩
    rw [mem_blk]
    intro a
    match a with
    | ⟨0, _⟩ => show win0_2.index t 0 * 1 ≤ (i 0).val ∧ (i 0).val < win0_2.index t 0 * 1 + 1; rw [e0, tv]; omega
    | ⟨1, _⟩ => show win0_2.index t 1 * 1 ≤ (i 1).val ∧ (i 1).val < win0_2.index t 1 * 1 + 1; rw [e1]; omega
    | ⟨2, _⟩ => show win0_2.index t 2 * 1 ≤ (i 2).val ∧ (i 2).val < win0_2.index t 2 * 1 + 1; rw [e2]; omega

end Cert.KernelIdeal.Fold

end
-- ==== Proof.Host.lean ====
import proofs.«154890_j19061064860389_2_alg».proof.Proof.Gen.KernelIdeal.Frame
import Idealize.ShloMosaic.Lib.ValueLayout
import Idealize.ShloMosaic.Lib.ValueIdx
import Idealize.ShloMosaic.PureOps.Ideal.Laws
import Idealize.ShloMosaic.Lib.StableHlo.Run

/-!
# The host operations around the region

Before the region each input array `[4, N, 3]` is transposed to `[4, 3, N]`: the transposed array at
`(b, k, n)` is the input at `(b, n, k)`. After the region the `[4, 1, 1]` array of per-batch values is added
up over all its indices from zero — an index of that array is its first coordinate, so this is zero plus the sum
over the four batches — and the total is multiplied by a constant.
-/

set_option maxRecDepth 16384

noncomputable section

namespace Cert.KernelIdeal.Host

open Cert.KernelIdeal Cert.KernelIdeal.Gen Idealize.ShloMosaic Idealize.ShloMosaic.TcCoe Idealize.ShloMosaic.Tactic
open Idealize.ShloMosaic.ValueIdx Idealize.SL.Sem

variable (m : (ℓ : Loc nD τ sig) → Buf (Elt Ideal) ℓ)

/-- The first window's array as the region finds it is the first input, its last two axes exchanged. -/
theorem V_main_v0 (c : Dev nD) :
    (V m c main_v0 : S4x3x8192.Idx → EReal)
      = transpose S4x3x8192 [0, 2, 1] (m ((c : Thread nD τ).loc main_arg0)) transposes_S4x8192x3_S4x3x8192_0_2_1 := by
  show StableHlo.after hostOps0 (fun b => m (c, b)) (Proc.devRef .tc main_v0) = _
  after_results

/-- Read at `(b, k, n)` it is the input at `(b, n, k)`. -/
theorem V_main_v0_apply (c : Dev nD) (b : Fin 4) (k : Fin 3) (n : Fin 8192) :
    (V m c main_v0 : S4x3x8192.Idx → EReal) (ix3 b k n) = m ((c : Thread nD τ).loc main_arg0) (ix3 b n k) := by
  rw [V_main_v0]
  exact transpose_ix3_021_apply _ _ b k n

/-- The second window's array as the region finds it is the second input, its last two axes exchanged. -/
theorem V_main_v1 (c : Dev nD) :
    (V m c main_v1 : S4x3x2048.Idx → EReal)
      = transpose S4x3x2048 [0, 2, 1] (m ((c : Thread nD τ).loc main_arg1)) transposes_S4x2048x3_S4x3x2048_0_2_1 := by
  show StableHlo.after hostOps0 (fun b => m (c, b)) (Proc.devRef .tc main_v1) = _
  after_results

/-- Read at `(b, k, q)` it is the input at `(b, q, k)`. -/
theorem V_main_v1_apply (c : Dev nD) (b : Fin 4) (k : Fin 3) (q : Fin 2048) :
    (V m c main_v1 : S4x3x2048.Idx → EReal) (ix3 b k q) = m ((c : Thread nD τ).loc main_arg1) (ix3 b q k) := by
  rw [V_main_v1]
  exact transpose_ix3_021_apply _ _ b k q

/-- An index of a `4 × 1 × 1` array is its first coordinate. -/
def idxEquiv411 : S4x1x1.Idx ≃ Fin 4 where
  toFun j := j 0
  invFun b := ix3 b 0 0
  left_inv j := by
    funext a
    match a with
    | ⟨0, _⟩ => rfl
    | ⟨1, _⟩ => exact Subsingleton.elim (α := Fin 1) _ _
    | ⟨2, _⟩ => exact Subsingleton.elim (α := Fin 1) _ _
  right_inv _ := rfl

/-- So a sum over all its indices is the sum over the first coordinate. -/
theorem sum_idx411 (x : S4x1x1.Idx → EReal) : ∑ j : S4x1x1.Idx, x j = ∑ b : Fin 4, x (ix3 b 0 0) :=
  Fintype.sum_equiv idxEquiv411 _ _ fun j => by rw [← idxEquiv411.left_inv j]; rfl

/-- The operations after the region on any `4 × 1 × 1` array whose entries are `G b`: zero plus the sum of the
    `G b`, times the constant. -/
theorem tail_pure (x : S4x1x1.Idx → EReal) (G : Fin 4 → EReal) (hG : ∀ b : Fin 4, x (ix3 b 0 0) = G b) :
    mulf (F := Ideal) (Host.reduceAdd (F := Ideal) (φ := .f32) x (constant S_ .f32 0x00000000#32) reducesTo_S4x1x1_S_d0_1_2 h_S_)
        (constant S_ .f32 0x38D1B717#32)
      = fun _ => (Ideal.ofBits .f32 0x00000000#32 + ∑ b : Fin 4, G b) * Ideal.ofBits .f32 0x38D1B717#32 := by
  funext i
  show (Host.reduceAdd (F := Ideal) (φ := .f32) x (constant S_ .f32 0x00000000#32) reducesTo_S4x1x1_S_d0_1_2 h_S_ i)
      * Ideal.ofBits .f32 0x38D1B717#32 = _
  congr 1
  simp only [Host.reduceAdd, Ideal.hostReduceAdd_def]
  rw [Ideal.hostReduceAdd_total reducesTo_S4x1x1_S_d0_1_2 (fun b => b.elim0) _ _ i, sum_idx411]
  simp only [hG]
  rfl

/-- The lines after the region find the output window's array as the region left it. -/
theorem arr2 (c : Dev nD) :
    Pipeline.withArrays (cfgs 0).spec c (V0 m c) (fun w => (dats m 0 c).arrAt w (cfgs 0).N) (Proc.devRef .tc main_v2)
      = (dats m 0 c).arrAt 2 cfg0.N := Pipeline.withArrays_arr spec0 launch0.win.arr_inj c _ _ 2

/-- The program's result, from the output array's entries `G b`. -/
theorem tail (c : Dev nD) (G : Fin 4 → EReal)
    (hG : ∀ b : Fin 4, ((dats m 0 c).arrAt 2 cfg0.N : S4x1x1.Idx → EReal) (ix3 b 0 0) = G b) :
    Pipeline.afterTail₀ cfgs (dats m) 0 (V0 m) [hostOps1] c main_v4
      = fun _ => (Ideal.ofBits .f32 0x00000000#32 + ∑ b : Fin 4, G b) * Ideal.ofBits .f32 0x38D1B717#32 := by
  unfold Pipeline.afterTail₀
  show StableHlo.after hostOps1 _ (Proc.devRef .tc main_v4) = _
  after_results
  exact (congrArg (fun x : S4x1x1.Idx → EReal => mulf (F := Ideal) (Host.reduceAdd (F := Ideal) (φ := .f32) x
      (constant S_ .f32 0x00000000#32) reducesTo_S4x1x1_S_d0_1_2 h_S_) (constant S_ .f32 0x38D1B717#32)) (arr2 m c)).trans
    (tail_pure _ G hG)

end Cert.KernelIdeal.Host

end
-- ==== Proof.KernelValue.lean ====
import proofs.«154890_j19061064860389_2_alg».proof.Proof.Final
import proofs.«154890_j19061064860389_2_alg».proof.Proof.Host

/-!
# The kernel's result

The points the region finds are the argument arrays with their last two axes exchanged, so the distances
are those of the arguments' points. After the region the four batch sums are added from `0` and scaled, so
the result is the symmetric nearest-neighbour sum of the arguments, taken batch by batch.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.Nearest

variable (m : (ℓ : Loc nD τ sig) → Buf (Elt Ideal) ℓ) (ρ : Dev nD → PrngReg)

/-- The larger set's points are the first argument's. -/
theorem P_eq (c : Dev nD) : P m c = fun b n k => (m ((c : Thread nD τ).loc main_arg0) : S4x8192x3.Idx → EReal) (ix3 b n k) :=
  funext fun b => funext fun n => funext fun k => Host.V_main_v0_apply m c b k n

/-- The smaller set's points are the second argument's. -/
theorem Q_eq (c : Dev nD) : Q m c = fun b q k => (m ((c : Thread nD τ).loc main_arg1) : S4x2048x3.Idx → EReal) (ix3 b q k) :=
  funext fun b => funext fun q => funext fun k => Host.V_main_v1_apply m c b k q

/-- The result, as a function of the argument arrays. -/
def result (c : Dev nD) : EReal :=
  perBatch (Ideal.ofBits .f32 0x00000000#32) (Ideal.ofBits .f32 0x38D1B717#32)
    (fun b n k => (m ((c : Thread nD τ).loc main_arg0) : S4x8192x3.Idx → EReal) (ix3 b n k))
    (fun b q k => (m ((c : Thread nD τ).loc main_arg1) : S4x2048x3.Idx → EReal) (ix3 b q k))

/-- What the operations after the region leave in the result buffer. -/
theorem tail_eq (c : Dev nD) :
    Pipeline.afterTail₀ cfgs (dats m) 0 (V0 m) [hostOps1] c main_v4 = fun _ => result m c := by
  refine (Host.tail m c (batchSum m c) (fun b => congrFun (final m c) (ix3 b 0 0))).trans ?_
  funext _
  unfold result perBatch
  rw [← P_eq m c, ← Q_eq m c]
  rfl

/-- The run: every weakly fair execution terminates with the result buffer at `result` and the arguments
    unchanged. -/
theorem run : θ_run defs (onTc (τ := τ) (main (F := Ideal))) ⟨m, fun _ => 0, ρ⟩ (fun r => ∀ c : Dev nD,
      r.2.mem ((c.tc : Thread nD τ).loc main_v4) = (fun _ => result m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Fold

end
-- ==== Proof.RefRead.lean ====
import proofs.«154890_j19061064860389_2_alg».proof.Proof.Dist
import proofs.«154890_j19061064860389_2_alg».proof.Proof.Gen.ReferenceIdeal.Read
import Idealize.ShloMosaic.PureOps.Reduce
import Idealize.ShloMosaic.PureOps.Ideal.Laws
import Idealize.ShloMosaic.Lib.ValueIdx

/-!
# The reference program read as a nearest-neighbour sum

The reference computes, for every batch `b`, point `n` of the first family and point `q` of the second, the
squared distance in its norm form `max ((|p|² + |q|²) - 2⟨p, q⟩) 0`, each squared norm and the inner product a
sum over the three coordinates started from zero. It then takes, for each `(b, n)`, the least value over `q`
(a fold of `min` from `+∞`, which is the infimum over `q`), adds these over all `(b, n)` from zero, does the same
with the two families exchanged, adds the two totals and scales by a constant. Read stage by stage at an index
this is `Cert.Nearest.perDirection` of the two input arrays.
-/

noncomputable section

namespace Cert.RefRead

open Cert.ReferenceIdeal Cert.ReferenceIdeal.Gen Cert.ReferenceIdeal.Read Cert.Nearest Idealize.ShloMosaic Idealize.ShloMosaic.ValueIdx

/-- The single-precision word `0x7F800000` encodes `+∞`. -/
theorem ofBits_inf : Ideal.ofBits .f32 0x7F800000#32 = (⊤ : EReal) := by
  simp [Ideal.ofBits, Ideal.ieee]

local notation "Z" => Ideal.ofBits FTy.f32 0x00000000#32
local notation "T" => Ideal.ofBits FTy.f32 0x40000000#32
local notation "C" => Ideal.ofBits FTy.f32 0x38D1B717#32

variable (x0 : (⟨S4x8192x3, .f32⟩ : BufTy).Contents (Elt Ideal)) (x1 : (⟨S4x2048x3, .f32⟩ : BufTy).Contents (Elt Ideal))

/-- The floored norm-form distance of the first direction, at `(b, n, q)`. -/
theorem v14_read (b : Fin 4) (n : Fin 8192) (q : Fin 2048) :
    val_main_v14 (F := Ideal) x0 x1 (ix3 b n q)
      = sqDistNorms Z T (fun k => x0 (ix3 b n k)) (fun k => x1 (ix3 b q k)) := by
  have e0 : ∀ k : Fin 3, idx_main_v1 (idx_main_v5 (idx_main_v7 (ix3 b n q))) k = ix3 b n k := fun k => by
    funext a; match a with | ⟨0, _⟩ => rfl | ⟨1, _⟩ => rfl | ⟨2, _⟩ => rfl
  have e1 : ∀ k : Fin 3, idx_main_v3 (idx_main_v6 (idx_main_v8 (ix3 b n q))) k = ix3 b q k := fun k => by
    funext a; match a with | ⟨0, _⟩ => rfl | ⟨1, _⟩ => rfl | ⟨2, _⟩ => rfl
  have e2 : ∀ k : Fin 3, lidx_main_v4 (ix3 b n q) k = ix3 b n k := fun k => by
    funext a; match a with | ⟨0, _⟩ => rfl | ⟨1, _⟩ => rfl | ⟨2, _⟩ => rfl
  have e3 : ∀ k : Fin 3, ridx_main_v4 (ix3 b n q) k = ix3 b q k := fun k => by
    funext a; match a with | ⟨0, _⟩ => rfl | ⟨1, _⟩ => rfl | ⟨2, _⟩ => rfl
  rw [val_main_v14_apply, val_main_v12_apply, val_main_v9_apply, val_main_v7_apply, val_main_v5_apply,
    val_main_v1_apply, val_main_v8_apply, val_main_v6_apply, val_main_v3_apply, val_main_v11_apply,
    val_main_v10_apply, val_main_v4_apply, val_main_v13_apply]
  simp only [val_main_v0_apply, val_main_v2_apply, val_main_cst_apply, val_main_cst_0_apply, val_main_cst_1_apply,
    val_main_cst_2_apply, e0, e1, e2, e3]
  rfl

/-- The floored norm-form distance of the second direction, at `(b, q, n)`. -/
theorem v31_read (b : Fin 4) (q : Fin 2048) (n : Fin 8192) :
    val_main_v31 (F := Ideal) x0 x1 (ix3 b q n)
      = sqDistNorms Z T (fun k => x1 (ix3 b q k)) (fun k => x0 (ix3 b n k)) := by
  have e0 : ∀ k : Fin 3, idx_main_v18 (idx_main_v22 (idx_main_v24 (ix3 b q n))) k = ix3 b q k := fun k => by
    funext a; match a with | ⟨0, _⟩ => rfl | ⟨1, _⟩ => rfl | ⟨2, _⟩ => rfl
  have e1 : ∀ k : Fin 3, idx_main_v20 (idx_main_v23 (idx_main_v25 (ix3 b q n))) k = ix3 b n k := fun k => by
    funext a; match a with | ⟨0, _⟩ => rfl | ⟨1, _⟩ => rfl | ⟨2, _⟩ => rfl
  have e2 : ∀ k : Fin 3, lidx_main_v21 (ix3 b q n) k = ix3 b q k := fun k => by
    funext a; match a with | ⟨0, _⟩ => rfl | ⟨1, _⟩ => rfl | ⟨2, _⟩ => rfl
  have e3 : ∀ k : Fin 3, ridx_main_v21 (ix3 b q n) k = ix3 b n k := fun k => by
    funext a; match a with | ⟨0, _⟩ => rfl | ⟨1, _⟩ => rfl | ⟨2, _⟩ => rfl
  rw [val_main_v31_apply, val_main_v29_apply, val_main_v26_apply, val_main_v24_apply, val_main_v22_apply,
    val_main_v18_apply, val_main_v25_apply, val_main_v23_apply, val_main_v20_apply, val_main_v28_apply,
    val_main_v27_apply, val_main_v21_apply, val_main_v30_apply]
  simp only [val_main_v17_apply, val_main_v19_apply, val_main_cst_5_apply, val_main_cst_6_apply, val_main_cst_7_apply,
    val_main_cst_8_apply, e0, e1, e2, e3]
  rfl

/-- The fold of `min` from `+∞` over the last axis is the infimum over `q`. -/
theorem v15_read (b : Fin 4) (n : Fin 8192) :
    val_main_v15 (F := Ideal) x0 x1 (ix2 b n)
      = Finset.univ.inf (fun q : Fin 2048 => sqDistNorms Z T (fun k => x0 (ix3 b n k)) (fun k => x1 (ix3 b q k))) := by
  have h : S4x8192x2048.Reduces [2] S4x8192 := by decide
  have hl : ∀ q : Fin 2048, h.lift (ix2 b n) q = ix3 b n q := fun q => by
    funext a; match a with | ⟨0, _⟩ => rfl | ⟨1, _⟩ => rfl | ⟨2, _⟩ => rfl
  unfold val_main_v15
  rw [Host.reduce_eq_fold_single FloatOps.minimumf _ _ reducesTo_S4x8192x2048_S4x8192_d2 h h_S_ (ix2 b n),
    val_main_cst_3_apply]
  show Finset.fold min (Ideal.ofBits FTy.f32 0x7F800000#32) _ (Finset.univ : Finset (Fin 2048)) = _
  rw [ofBits_inf]
  refine Eq.trans (b := Finset.univ.inf (fun q : Fin 2048 => val_main_v14 (F := Ideal) x0 x1 (h.lift (ix2 b n) q))) rfl ?_
  refine Finset.inf_congr rfl fun q _ => ?_
  rw [hl, v14_read]

/-- The same for the second direction: the infimum over `n`. -/
theorem v32_read (b : Fin 4) (q : Fin 2048) :
    val_main_v32 (F := Ideal) x0 x1 (ix2 b q)
      = Finset.univ.inf (fun n : Fin 8192 => sqDistNorms Z T (fun k => x1 (ix3 b q k)) (fun k => x0 (ix3 b n k))) := by
  have h : S4x2048x8192.Reduces [2] S4x2048 := by decide
  have hl : ∀ n : Fin 8192, h.lift (ix2 b q) n = ix3 b q n := fun n => by
    funext a; match a with | ⟨0, _⟩ => rfl | ⟨1, _⟩ => rfl | ⟨2, _⟩ => rfl
  unfold val_main_v32
  rw [Host.reduce_eq_fold_single FloatOps.minimumf _ _ reducesTo_S4x2048x8192_S4x2048_d2 h h_S_ (ix2 b q),
    val_main_cst_9_apply]
  show Finset.fold min (Ideal.ofBits FTy.f32 0x7F800000#32) _ (Finset.univ : Finset (Fin 8192)) = _
  rw [ofBits_inf]
  refine Eq.trans (b := Finset.univ.inf (fun n : Fin 8192 => val_main_v31 (F := Ideal) x0 x1 (h.lift (ix2 b q) n))) rfl ?_
  refine Finset.inf_congr rfl fun n _ => ?_
  rw [hl, v31_read]

/-- The reference's result is the direction-by-direction nearest-neighbour sum through the norm form. -/
theorem val_main_v35_eq_perDirection :
    val_main_v35 (F := Ideal) x0 x1
      = fun _ => perDirection Z T C (fun b n k => x0 (ix3 b n k)) (fun b q k => x1 (ix3 b q k)) := by
  funext i
  rw [val_main_v35_apply, val_main_v34_apply, val_main_v16_apply, val_main_v33_apply, val_main_cst_4_apply,
    val_main_cst_10_apply, val_main_cst_11_apply, sum_idx2, sum_idx2]
  simp only [v15_read, v32_read]
  rfl

end Cert.RefRead

end
-- ==== Proof.Bridge.lean ====
import proofs.«154890_j19061064860389_2_alg».proof.Proof.Dist

/-!
# The two forms of the squared distance agree at real points

For points with real coordinates, `|p|² + |q|² - 2⟨p, q⟩` is the sum of the squared coordinate differences,
which is non-negative, so flooring it at zero changes nothing; the identity is symmetric in the two points.
Summing the nearest-point distances direction by direction or batch by batch is then the same sum, because
addition of extended reals is commutative and associative.
-/

noncomputable section

namespace Cert.Nearest

open Idealize.ShloMosaic

/-- The single-precision word `0x40000000` encodes the real number two. -/
theorem ofBits_two_f32 : Ideal.ofBits .f32 0x40000000#32 = (2 : EReal) := by
  have h2 : (2 : EReal) = ((2 : ℝ) : EReal) := rfl
  rw [h2]
  simp [Ideal.ofBits, Ideal.ieee]
  norm_cast
  norm_num

/-- The norm form of the squared distance at real coordinates, coordinate by coordinate. -/
theorem norms_real (a0 a1 a2 c0 c1 c2 : ℝ) :
    max ((((0 : EReal) + ((a0 : EReal) * a0 + a1 * a1 + a2 * a2)) + (0 + ((c0 : EReal) * c0 + c1 * c1 + c2 * c2)))
        - 2 * ((a0 : EReal) * c0 + a1 * c1 + a2 * c2)) 0
      = ((a0 : EReal) - c0) * (a0 - c0) + (a1 - c1) * (a1 - c1) + (a2 - c2) * (a2 - c2) := by
  have h2 : (2 : EReal) = ((2 : ℝ) : EReal) := by norm_cast
  rw [h2, zero_add, zero_add]
  simp only [← EReal.coe_mul, ← EReal.coe_add, ← EReal.coe_sub]
  rw [max_eq_left]
  · congr 1; ring
  · rw [← EReal.coe_zero, EReal.coe_le_coe_iff]
    nlinarith [mul_self_nonneg (a0 - c0), mul_self_nonneg (a1 - c1), mul_self_nonneg (a2 - c2)]

/-- At real points the norm form is the squared distance. -/
theorem sqDistNorms_eq_sqDist (p q : Fin 3 → EReal) (hp : ∀ k, ∃ r : ℝ, p k = (r : EReal))
    (hq : ∀ k, ∃ r : ℝ, q k = (r : EReal)) : sqDistNorms 0 2 p q = sqDist p q := by
  choose a ha using hp
  choose c hc using hq
  unfold sqDistNorms sqDist
  simp only [Fin.sum_univ_three, ha, hc]
  exact norms_real _ _ _ _ _ _

/-- The squared distance is symmetric. -/
theorem sqDist_comm (p q : Fin 3 → EReal) (hp : ∀ k, ∃ r : ℝ, p k = (r : EReal))
    (hq : ∀ k, ∃ r : ℝ, q k = (r : EReal)) : sqDist q p = sqDist p q := by
  choose a ha using hp
  choose c hc using hq
  unfold sqDist
  simp only [ha, hc, ← EReal.coe_mul, ← EReal.coe_add, ← EReal.coe_sub]
  congr 1; ring

/-- At real points the norm form with the points exchanged is the same squared distance. -/
theorem sqDistNorms_swap_eq_sqDist (p q : Fin 3 → EReal) (hp : ∀ k, ∃ r : ℝ, p k = (r : EReal))
    (hq : ∀ k, ∃ r : ℝ, q k = (r : EReal)) : sqDistNorms 0 2 q p = sqDist p q := by
  rw [sqDistNorms_eq_sqDist q p hq hp, sqDist_comm p q hp hq]

/-- For real points, the direction-by-direction sum through the norm form is the batch-by-batch sum. -/
theorem perDirection_eq_perBatch {NB NP NQ : Nat} (c : EReal) (P : Fin NB → Fin NP → Fin 3 → EReal)
    (Q : Fin NB → Fin NQ → Fin 3 → EReal) (hP : ∀ b n k, ∃ r : ℝ, P b n k = (r : EReal))
    (hQ : ∀ b q k, ∃ r : ℝ, Q b q k = (r : EReal)) : perDirection 0 2 c P Q = perBatch 0 c P Q := by
  have h1 : ∀ b n q, sqDistNorms 0 2 (P b n) (Q b q) = sqDist (P b n) (Q b q) :=
    fun b n q => sqDistNorms_eq_sqDist _ _ (hP b n) (hQ b q)
  have h2 : ∀ b q n, sqDistNorms 0 2 (Q b q) (P b n) = sqDist (P b n) (Q b q) :=
    fun b q n => sqDistNorms_swap_eq_sqDist _ _ (hP b n) (hQ b q)
  unfold perDirection perBatch nearestSum
  simp only [h1, h2, zero_add, Finset.sum_add_distrib]

/-- The same with the constants given by their single-precision words. -/
theorem perDirection_bits_eq_perBatch {NB NP NQ : Nat} (c : EReal) (P : Fin NB → Fin NP → Fin 3 → EReal)
    (Q : Fin NB → Fin NQ → Fin 3 → EReal) (hP : ∀ b n k, ∃ r : ℝ, P b n k = (r : EReal))
    (hQ : ∀ b q k, ∃ r : ℝ, Q b q k = (r : EReal)) :
    perDirection (Ideal.ofBits .f32 0x00000000#32) (Ideal.ofBits .f32 0x40000000#32) c P Q
      = perBatch (Ideal.ofBits .f32 0x00000000#32) c P Q := by
  rw [Ideal.ofBits_zero_f32, ofBits_two_f32]
  exact perDirection_eq_perBatch c P Q hP hQ

end Cert.Nearest

end
-- ==== Proof.Finite.lean ====
import proofs.«154890_j19061064860389_2_alg».proof.Pre_finite_inputs
import Idealize.ShloMosaic.Lib.ReduceAll
import Idealize.ShloMosaic.Lib.ValueIdx
import Idealize.ShloMosaic.PureOps.Ideal.Laws

/-!
# From the precondition to real coordinates

The precondition says that `|x| < +∞` holds at every entry of both input arrays: each array's comparison
results are reduced by `and` from `true` over all axes, the two results are combined by `and`, and the
outcome is `true`. An `and` that is `true` had both operands `true`, and a reduction by `and` that is `true`
met `true` at every entry. Over the extended reals `|x| = max x (-x)` is `+∞` exactly at the two infinities, so
`|x| < +∞` leaves the real numbers.
-/

noncomputable section

namespace Cert.Finite

open Idealize.ShloMosaic Cert.Pre_finite_inputs

instance : Subsingleton S_.Idx := ⟨fun a b => funext fun d => d.elim0⟩

/-- The single-precision word `0x7F800000` encodes `+∞`. -/
theorem ofBits_inf : Ideal.ofBits .f32 0x7F800000#32 = (⊤ : EReal) := by
  simp [Ideal.ofBits, Ideal.ieee]

/-- An extended real whose absolute value is below `+∞` is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- Under the precondition every entry of both input arrays is a real number. -/
theorem finite_of_pre [Facts] (x0 : FVec Ideal S4x8192x3 .f32) (x1 : FVec Ideal S4x2048x3 .f32)
    (h : Cert.Pre_finite_inputs.fn (F := Ideal) x0 x1 = (fun _ => 1#1)) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  refine ⟨fun i => ?_, fun i => ?_⟩
  · have e := Host.reduce_andi_all _ _ _ _ _ ha i
    exact real_of_abs_lt _ e
  · have e := Host.reduce_andi_all _ _ _ _ _ hb i
    exact real_of_abs_lt _ e

/-- The same, coordinate by coordinate. -/
theorem finite_coords [Facts] (x0 : FVec Ideal S4x8192x3 .f32) (x1 : FVec Ideal S4x2048x3 .f32)
    (h : Cert.Pre_finite_inputs.fn (F := Ideal) x0 x1 = (fun _ => 1#1)) :
    (∀ (b : Fin 4) (n : Fin 8192) (k : Fin 3), ∃ r : ℝ, x0 (ValueIdx.ix3 b n k) = (r : EReal))
      ∧ (∀ (b : Fin 4) (q : Fin 2048) (k : Fin 3), ∃ r : ℝ, x1 (ValueIdx.ix3 b q k) = (r : EReal)) :=
  ⟨fun b n k => (finite_of_pre x0 x1 h).1 _, fun b q k => (finite_of_pre x0 x1 h).2 _⟩

end Cert.Finite

end
-- ==== Proof.RefNearest.lean ====
import proofs.«154890_j19061064860389_2_alg».proof.Proof.RefRead
import proofs.«154890_j19061064860389_2_alg».proof.Proof.Bridge
import proofs.«154890_j19061064860389_2_alg».proof.Proof.Finite

/-!
# The reference under the precondition

With every input entry real, the reference's direction-by-direction sum through the norm form of the distance is
the batch-by-batch sum of the coordinate form.
-/

noncomputable section

namespace Cert.RefRead

open Cert.ReferenceIdeal Cert.ReferenceIdeal.Gen Cert.ReferenceIdeal.Read Cert.Nearest Idealize.ShloMosaic Idealize.ShloMosaic.ValueIdx

/-- Under the precondition the reference's result is `perBatch` of the two input arrays. -/
theorem val_main_v35_eq_perBatch [Cert.Pre_finite_inputs.Facts]
    (x0 : (⟨S4x8192x3, .f32⟩ : BufTy).Contents (Elt Ideal)) (x1 : (⟨S4x2048x3, .f32⟩ : BufTy).Contents (Elt Ideal))
    (h : Cert.Pre_finite_inputs.fn (F := Ideal) x0 x1 = (fun _ => 1#1)) :
    val_main_v35 (F := Ideal) x0 x1
      = fun _ => perBatch (Ideal.ofBits FTy.f32 0x00000000#32) (Ideal.ofBits FTy.f32 0x38D1B717#32)
          (fun b n k => x0 (ix3 b n k)) (fun b q k => x1 (ix3 b q k)) := by
  obtain ⟨hP, hQ⟩ := Cert.Finite.finite_coords x0 x1 h
  rw [val_main_v35_eq_perDirection, perDirection_bits_eq_perBatch _ _ _ hP hQ]

end Cert.RefRead

end
-- ==== Proof.lean ====
/-
  A symmetric nearest-neighbour sum of squared distances: for two sets of points in three coordinates, per
  batch, the sum over the first set of the squared distance to the nearest point of the second, plus the sum
  over the second set of the squared distance to the nearest point of the first; the batches are added and the
  total is scaled by one constant.

  The kernel walks each batch's larger set in 16 tiles of 512 points. For a tile it forms the 512 × 2048
  table of squared distances as coordinate differences squared and added, adds the tile's row minima to a
  running sum, and lowers a row of 2048 running minima by the tile's column minima; after the last tile it
  writes the running sum plus the sum of the running minima, and the four batch values are added and scaled
  outside. The reference forms each squared distance as the two squared norms less twice the inner product,
  floored at zero, takes each direction's minima and sum over all batches at once, and adds and scales the two
  totals.

  Over the extended reals the two agree when every coordinate is a real number: then the floored norm form
  is the sum of squared differences (a real identity, and a sum of squares is not negative); a minimum over
  all points is the minimum of the tiles' minima; a sum over all points is the sum of the tiles' sums; and
  adding per batch or per direction is the same sum rearranged. At an infinite coordinate the two forms of the
  distance differ, which is where the precondition that every input is finite is used.
-/
import proofs.«154890_j19061064860389_2_alg».proof.Defs
import proofs.«154890_j19061064860389_2_alg».proof.Proof.Gen.Kernel
import proofs.«154890_j19061064860389_2_alg».proof.Proof.Gen.Kernel.Skeleton
import proofs.«154890_j19061064860389_2_alg».proof.Proof.Gen.Kernel.Launch
import proofs.«154890_j19061064860389_2_alg».proof.Proof.Gen.Kernel.Points
import proofs.«154890_j19061064860389_2_alg».proof.Proof.Gen.Kernel.Frame
import proofs.«154890_j19061064860389_2_alg».proof.Proof.Gen.KernelIdeal
import proofs.«154890_j19061064860389_2_alg».proof.Proof.Gen.KernelIdeal.Skeleton
import proofs.«154890_j19061064860389_2_alg».proof.Proof.Gen.KernelIdeal.Launch
import proofs.«154890_j19061064860389_2_alg».proof.Proof.Gen.KernelIdeal.Points
import proofs.«154890_j19061064860389_2_alg».proof.Proof.Gen.KernelIdeal.Frame
import proofs.«154890_j19061064860389_2_alg».proof.Proof.Gen.ReferenceIdeal
import proofs.«154890_j19061064860389_2_alg».proof.Proof.Gen.Pre_finite_inputs
import proofs.«154890_j19061064860389_2_alg».proof.Proof.Gen.ReferenceIdeal.Run
import proofs.«154890_j19061064860389_2_alg».proof.Proof.Gen.ReferenceIdeal.Read
import proofs.«154890_j19061064860389_2_alg».proof.Proof.KernelValue
import proofs.«154890_j19061064860389_2_alg».proof.Proof.RefNearest
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- Both programs end with the batch-by-batch symmetric sum of the arguments' points: the kernel by its tiles
    and accumulators, the reference by the finiteness of the inputs. -/
theorem algebraic : Cert.algebraic_KernelIdeal_ReferenceIdeal := by
  intro m ρ m' ρ' hpre hagree
  refine ⟨fun c => fun _ => Cert.KernelIdeal.Fold.result m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2]
  exact Cert.RefRead.val_main_v35_eq_perBatch _ _ (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
